-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1x2048 : Shape := ⟨2, ![1, 2048]⟩
abbrev S2048x2048 : Shape := ⟨2, ![2048, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  shapeCasts_S2048x2048_S2048x2048 : S2048x2048.ShapeCasts S2048x2048
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .f32 = 32 ∨ (Rect.block (s := S4096x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S4096x4096.size a
  hwx0_3 : ∀ i : grid0.Coords, EltTy.bits .f32 = 32 ∨ (Rect.block (s := S4096x4096) S2048x2048.size (cc0_transform_3 i) (hinb0_3 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LinearSpec.lean ====
/-
  The specification both programs are compared with: the linear layer
      y[r, c] = b[c] + Σ_{k < 4096} x[r, k] · w[c, k]
  over the extended reals, for a 4096 × 4096 input `x`, a 4096 × 4096 weight `w` (used transposed) and a bias `b` of
  length 4096. Beside it, two tools for a contraction that is computed 512 columns at a time: an array extended by
  zero to all natural coordinates (so that "row 2048·a + p, column 512·s + k" is a term with no bound to carry),
  and the law that a sum over 4096 = 8 · 512 consecutive indices is the sum of its 8 blocks of 512. Only
  commutativity and associativity of the sum are used, so nothing here asks the entries to be finite.
-/
import Idealize.ShloMosaic.PureOps.Ideal
import Idealize.ShloMosaic.Lib.ValueIdx

noncomputable section

namespace Cert.Linear

open Idealize.ShloMosaic Idealize.ShloMosaic.ValueIdx
open scoped BigOperators

/-- A 4096 × 4096 array of extended reals. -/
abbrev Mat : Type := (⟨2, ![4096, 4096]⟩ : Shape).Idx → EReal
/-- A length-4096 array of extended reals. -/
abbrev Row : Type := (⟨1, ![4096]⟩ : Shape).Idx → EReal

/-- The linear layer: entry `(r, c)` is `b[c] + Σ_k x[r, k] · w[c, k]`. -/
def linear (x w : Mat) (b : Row) : Mat := fun i =>
  b (ix1 (i 1)) + ∑ k : Fin 4096, x (ix2 (i 0) k) * w (ix2 (i 1) k)

/-- A matrix extended by zero to all natural coordinates. -/
def ext2 (a : Mat) (r k : ℕ) : EReal := if h : r < 4096 ∧ k < 4096 then a (ix2 ⟨r, h.1⟩ ⟨k, h.2⟩) else 0
/-- A row extended by zero to all natural coordinates. -/
def ext1 (b : Row) (k : ℕ) : EReal := if h : k < 4096 then b (ix1 ⟨k, h⟩) else 0

theorem ext2_of_lt (a : Mat) {r k : ℕ} (hr : r < 4096) (hk : k < 4096) : ext2 a r k = a (ix2 ⟨r, hr⟩ ⟨k, hk⟩) :=
  dif_pos ⟨hr, hk⟩
theorem ext1_of_lt (b : Row) {k : ℕ} (hk : k < 4096) : ext1 b k = b (ix1 ⟨k, hk⟩) := dif_pos hk

theorem ext2_fin (a : Mat) (r k : Fin 4096) : ext2 a r.val k.val = a (ix2 r k) := ext2_of_lt a r.isLt k.isLt
theorem ext1_fin (b : Row) (k : Fin 4096) : ext1 b k.val = b (ix1 k) := ext1_of_lt b k.isLt

/-- The linear layer over the extended arrays: the same entry, every coordinate a natural number. -/
theorem linear_ext (x w : Mat) (b : Row) (r c : Fin 4096) :
    linear x w b (ix2 r c) = ext1 b c.val + ∑ k : Fin 4096, ext2 x r.val k.val * ext2 w c.val k.val := by
  show b (ix1 c) + ∑ k : Fin 4096, x (ix2 r k) * w (ix2 c k) = _
  rw [← ext1_fin b c]
  exact congrArg (ext1 b c.val + ·) (Finset.sum_congr rfl fun k _ => by rw [ext2_fin, ext2_fin])

/-- A sum over `B · K` consecutive naturals is the sum, over `B` blocks, of each block's `K` terms. -/
theorem sum_range_blocks {β : Type*} [AddCommMonoid β] (K : ℕ) (f : ℕ → β) : ∀ B : ℕ,
    ∑ k ∈ Finset.range (B * K), f k = ∑ s ∈ Finset.range B, ∑ kk ∈ Finset.range K, f (K * s + kk)
  | 0 => by simp
  | B + 1 => by
    rw [Nat.succ_mul, Finset.sum_range_add, sum_range_blocks K f B, Finset.sum_range_succ, Nat.mul_comm B K]

/-- The contraction over 4096 indices, 512 at a time: the 8 blocks' sums add up to the whole sum. -/
theorem sum_blocks {β : Type*} [AddCommMonoid β] (f : ℕ → β) :
    ∑ s ∈ Finset.range 8, ∑ kk : Fin 512, f (512 * s + kk.val) = ∑ k : Fin 4096, f k.val := by
  rw [Fin.sum_univ_eq_sum_range f 4096]
  rw [show (4096 : ℕ) = 8 * 512 from rfl, sum_range_blocks 512 f 8]
  exact Finset.sum_congr rfl fun s _ => Fin.sum_univ_eq_sum_range (fun kk => f (512 * s + kk)) 512

end Cert.Linear

end
-- ==== Proof.RefLinear.lean ====
/-
  The reference, read index by index: `jnp.dot(x, w.T) + b` lowers to a transpose of the weight, a `dot_general`
  contracting the input's columns with the transposed weight's rows, the bias broadcast along the rows, and a sum.
  At entry `(r, c)` that is `Σ_k x[r, k] · w[c, k] + b[c]` — the transposed weight at `(k, c)` is the weight at
  `(c, k)` — which is the linear layer of the specification with the two summands in the other order.
-/
import proofs.«152581_g7619271983253_cont_9to1c4b_867_6_alg».proof.Proof.Gen.ReferenceIdeal.Read
import proofs.«152581_g7619271983253_cont_9to1c4b_867_6_alg».proof.Proof.LinearSpec

noncomputable section

namespace Cert.ReferenceIdeal.RefValue

open Cert.ReferenceIdeal Cert.ReferenceIdeal.Gen Cert.ReferenceIdeal.Read Cert.Linear
open Idealize.ShloMosaic Idealize.ShloMosaic.ValueIdx

/-- The reference's result is the linear layer of its three arguments. -/
theorem result_eq (x w : FVec Ideal S4096x4096 .f32) (b : FVec Ideal S4096 .f32) :
    val_main_v4 (F := Ideal) x w b = linear x w b := by
  funext i
  rw [val_main_v4_apply, val_main_v1_apply, val_main_v3_apply, val_main_v2_apply]
  unfold linear
  have hb : idx_main_v2 (idx_main_v3 i) = ix1 (i 1) := funext fun a => Fin.ext (by match a with | ⟨0, _⟩ => rfl)
  have hl : ∀ k : Fin 4096, lidx_main_v1 i k = ix2 (i 0) k := fun k =>
    funext fun a => Fin.ext (by match a with | ⟨0, _⟩ => rfl | ⟨1, _⟩ => rfl)
  have hr : ∀ k : Fin 4096, idx_main_v0 (ridx_main_v1 i k) = ix2 (i 1) k := fun k =>
    funext fun a => Fin.ext (by match a with | ⟨0, _⟩ => rfl | ⟨1, _⟩ => rfl)
  rw [hb]
  show (∑ k : Fin 4096, x (lidx_main_v1 i k) * val_main_v0 (F := Ideal) w (ridx_main_v1 i k)) + b (ix1 (i 1)) = _
  rw [add_comm]
  exact congrArg (b (ix1 (i 1)) + ·) (Finset.sum_congr rfl fun k _ => by rw [val_main_v0_apply, hl k, hr k]; rfl)

end Cert.ReferenceIdeal.RefValue

end
-- ==== Proof.KernelBody.lean ====
/-
  The kernel body's two stored values, read at an entry `(p, q)` of the 2048 × 2048 output block.
  At the first step of a contraction the block is set to the bias block broadcast along the rows: entry `(p, q)` is the
  bias block's entry `(0, q)`. At every step the block then gains the product of the input block (2048 × 512) with the
  weight block (2048 × 512) contracted over their 512 columns: entry `(p, q)` gains `Σ_{k < 512} xblk[p, k] · wblk[q, k]`.
  The narrowing of both operands to bfloat16 before the product is the identity on extended reals.
-/
import proofs.«152581_g7619271983253_cont_9to1c4b_867_6_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-- The reset value: the bias block's row, repeated down the 2048 rows. -/
theorem bias_apply (x2 : Vec Ideal S1x2048 .f32) (p q : Fin 2048) :
    k0_pay1 (F := Ideal) x2 (ix2 p q) = x2 (ix2 (0 : Fin 1) q) := by
  unfold k0_pay1
  rw [shapeCast_self, shapeCast_self]
  exact broadcastTo_1b_ab_apply x2 broadcasts_S1x2048_S2048x2048 p q

/-- The step: the block's previous entry plus the 512-term product of the input block's row `p` with the weight
    block's row `q`. -/
theorem step_apply (x0 x1 : Vec Ideal S2048x512 .f32) (acc : Vec Ideal S2048x2048 .f32) (p q : Fin 2048) :
    k0_pay2 (F := Ideal) x0 x1 acc (ix2 p q) = acc (ix2 p q) + ∑ k : Fin 512, x0 (ix2 p k) * x1 (ix2 q k) := by
  unfold k0_pay2
  rw [shapeCast_self]
  show acc (ix2 p q) + FloatOps.matmul (F := Ideal) dot_S2048x512_S2048x512_S2048x2048_1_1_0_0_n_n none
      (truncf (F := Ideal) .bf16 x0 bitsLt_bf16_f32) (truncf (F := Ideal) .bf16 x1 bitsLt_bf16_f32)
      (constant (F := Ideal) S2048x2048 .f32 0x00000000#32) (ix2 p q) = _
  rw [Ideal.matmul_constant_zero_apply,
    ← Equiv.sum_comp (contrEquiv1 dot_S2048x512_S2048x512_S2048x2048_1_1_0_0_n_n 512 rfl rfl).symm]
  refine congrArg (acc (ix2 p q) + ·) (Finset.sum_congr rfl fun k _ => ?_)
  have hk := contrEquiv1_symm_val dot_S2048x512_S2048x512_S2048x2048_1_1_0_0_n_n 512 rfl rfl k
  have el : dot_S2048x512_S2048x512_S2048x2048_1_1_0_0_n_n.lhsIdx (ix2 p q)
      ((contrEquiv1 dot_S2048x512_S2048x512_S2048x2048_1_1_0_0_n_n 512 rfl rfl).symm k) = ix2 p k :=
    funext fun a => Fin.ext (by
      match a with
      | ⟨0, _⟩ =>
        show (dot_S2048x512_S2048x512_S2048x2048_1_1_0_0_n_n.lhsIdx (ix2 p q) _ 0).val = p.val
        unfold DotDims.lhsIdx
        rw [dif_neg (show ¬(0 : Fin S2048x512.rank) ∈ dot_S2048x512_S2048x512_S2048x2048_1_1_0_0_n_n.lhsBatch by decide),
          dif_pos (show (0 : Fin S2048x512.rank) ∈ dot_S2048x512_S2048x512_S2048x2048_1_1_0_0_n_n.lhsNonContracting by decide)]
        rfl
      | ⟨1, _⟩ =>
        exact (dot_S2048x512_S2048x512_S2048x2048_1_1_0_0_n_n.lhsIdx_val_of_single rfl (ix2 p q) _).trans hk)
  have er : dot_S2048x512_S2048x512_S2048x2048_1_1_0_0_n_n.rhsIdx (ix2 p q)
      ((contrEquiv1 dot_S2048x512_S2048x512_S2048x2048_1_1_0_0_n_n 512 rfl rfl).symm k) = ix2 q k :=
    funext fun a => Fin.ext (by
      match a with
      | ⟨0, _⟩ =>
        show (dot_S2048x512_S2048x512_S2048x2048_1_1_0_0_n_n.rhsIdx (ix2 p q) _ 0).val = q.val
        unfold DotDims.rhsIdx
        rw [dif_neg (show ¬(0 : Fin S2048x512.rank) ∈ dot_S2048x512_S2048x512_S2048x2048_1_1_0_0_n_n.rhsBatch by decide),
          dif_pos (show (0 : Fin S2048x512.rank) ∈ dot_S2048x512_S2048x512_S2048x2048_1_1_0_0_n_n.rhsNonContracting by decide)]
        rfl
      | ⟨1, _⟩ =>
        exact (dot_S2048x512_S2048x512_S2048x2048_1_1_0_0_n_n.rhsIdx_val_of_single rfl (ix2 p q) _).trans hk)
  rw [el, er]
  rfl

end Cert.KernelIdeal.Body

end
-- ==== Proof.KernelBlocks.lean ====
/-
  The blocks the kernel is given at a grid point, in terms of the argument arrays. The grid is 2 × 2 × 8: point
  `t = 16·a + 8·b + s` works on output block `(a, b)` at contraction step `s`. There the input block is rows
  `2048·a …`, columns `512·s …` of the input; the weight block is rows `2048·b …`, columns `512·s …` of the
  weight; and the bias block is entries `2048·b …` of the bias, which the program first lays out as a 1 × 4096 row.
  Arrays are read through their extensions by zero to natural coordinates, so the statements carry no bounds.
-/
import proofs.«152581_g7619271983253_cont_9to1c4b_867_6_alg».proof.Proof.Gen.KernelIdeal.Value
import proofs.«152581_g7619271983253_cont_9to1c4b_867_6_alg».proof.Proof.LinearSpec
import Idealize.ShloMosaic.Lib.ValueLayout
import Idealize.ShloMosaic.Lib.StableHlo.Run

noncomputable section

namespace Cert.KernelIdeal.Blocks

open Cert.KernelIdeal Cert.KernelIdeal.Gen Cert.Linear
open Idealize.ShloMosaic Idealize.ShloMosaic.TcCoe Idealize.ShloMosaic.ValueIdx Idealize.SL.Sem Idealize.ShloMosaic.StableHlo

variable (m : (ℓ : Loc nD τ sig) → Buf (Elt Ideal) ℓ)

/-- Which block of its array each input window holds at point `t`: the input's block `(t / 16, t % 8)`, the weight's
    block `(t / 8 % 2, t % 8)`, the bias row's block `(0, t / 8 % 2)` — decided over the 32 points. -/
theorem block_index : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2 :=
  (by decide +kernel : ∀ t : Fin grid0.N, _)

/-- The bias as the kernel's window finds it: the length-4096 argument laid out as one row. -/
theorem bias_row (c : Dev nD) :
    (V m c main_v0 : S1x4096.Idx → EReal) = shapeCast S1x4096 (m ((c : Thread nD τ).loc main_arg2)) shapeCasts_S4096_S1x4096 := by
  dsimp only [V, hostOps0]
  after_results
  rfl

/-- The input block at point `t`, entry `(p, k)`: the input at row `2048·(t / 16) + p`, column `512·(t % 8) + k`. -/
theorem input_block (c : Dev nD) (t : Fin cfg0.N) (p : Fin 2048) (k : Fin 512) :
    iblk m c 0 t (ix2 p k)
      = ext2 (m ((c : Thread nD τ).loc main_arg0)) (2048 * (t.val / 16) + p.val) (512 * (t.val % 8) + k.val) := by
  obtain ⟨e0, e1, -⟩ := block_index t
  have ht : t.val < 32 := lt_of_lt_of_eq t.isLt N_0
  have hr : 2048 * (t.val / 16) + p.val < 4096 := by have := p.isLt; omega
  have hk : 512 * (t.val % 8) + k.val < 4096 := by have := k.isLt; omega
  rw [ext2_of_lt _ hr hk, ← V_main_arg0 m c]
  show V m c main_arg0 (((cfg0.win 0).blk t).view.emb (ix2 p k)) = V m c main_arg0 _
  refine congrArg _ (funext fun a => Fin.ext ?_)
  match a with
  | ⟨0, _⟩ =>
    show win0_0.index t (0 : Fin 2) * 2048 + 1 * p.val = 2048 * (t.val / 16) + p.val
    rw [e0]; omega
  | ⟨1, _⟩ =>
    show win0_0.index t (1 : Fin 2) * 512 + 1 * k.val = 512 * (t.val % 8) + k.val
    rw [e1]; omega

/-- The weight block at point `t`, entry `(q, k)`: the weight at row `2048·(t / 8 % 2) + q`, column `512·(t % 8) + k`. -/
theorem weight_block (c : Dev nD) (t : Fin cfg0.N) (q : Fin 2048) (k : Fin 512) :
    iblk m c 1 t (ix2 q k)
      = ext2 (m ((c : Thread nD τ).loc main_arg1)) (2048 * (t.val / 8 % 2) + q.val) (512 * (t.val % 8) + k.val) := by
  obtain ⟨-, -, e0, e1, -⟩ := block_index t
  have ht : t.val < 32 := lt_of_lt_of_eq t.isLt N_0
  have hr : 2048 * (t.val / 8 % 2) + q.val < 4096 := by have := q.isLt; omega
  have hk : 512 * (t.val % 8) + k.val < 4096 := by have := k.isLt; omega
  rw [ext2_of_lt _ hr hk, ← V_main_arg1 m c]
  show V m c main_arg1 (((cfg0.win 1).blk t).view.emb (ix2 q k)) = V m c main_arg1 _
  refine congrArg _ (funext fun a => Fin.ext ?_)
  match a with
  | ⟨0, _⟩ =>
    show win0_1.index t (0 : Fin 2) * 2048 + 1 * q.val = 2048 * (t.val / 8 % 2) + q.val
    rw [e0]; omega
  | ⟨1, _⟩ =>
    show win0_1.index t (1 : Fin 2) * 512 + 1 * k.val = 512 * (t.val % 8) + k.val
    rw [e1]; omega

/-- The bias block at point `t`, entry `(0, q)`: the bias at `2048·(t / 8 % 2) + q`. -/
theorem bias_block (c : Dev nD) (t : Fin cfg0.N) (q : Fin 2048) :
    iblk m c 2 t (ix2 (0 : Fin 1) q) = ext1 (m ((c : Thread nD τ).loc main_arg2)) (2048 * (t.val / 8 % 2) + q.val) := by
  obtain ⟨-, -, -, -, e0, e1⟩ := block_index t
  have hk : 2048 * (t.val / 8 % 2) + q.val < 4096 := by have := q.isLt; omega
  rw [ext1_of_lt _ hk]
  show (V m c main_v0 : S1x4096.Idx → EReal) (((cfg0.win 2).blk t).view.emb (ix2 (0 : Fin 1) q)) = _
  rw [bias_row m c]
  have hidx : ((cfg0.win 2).blk t).view.emb (ix2 (0 : Fin 1) q)
      = ix2 (0 : Fin 1) (⟨2048 * (t.val / 8 % 2) + q.val, hk⟩ : Fin 4096) :=
    funext fun a => Fin.ext (by
      match a with
      | ⟨0, _⟩ =>
        show win0_2.index t (0 : Fin 2) * 1 + 1 * 0 = 0
        rw [e0]
      | ⟨1, _⟩ =>
        show win0_2.index t (1 : Fin 2) * 2048 + 1 * q.val = 2048 * (t.val / 8 % 2) + q.val
        rw [e1]; omega)
  rw [hidx]
  exact shapeCast_a_1a_apply _ shapeCasts_S4096_S1x4096 (0 : Fin 1) ⟨_, hk⟩

end Cert.KernelIdeal.Blocks

end
-- ==== Proof.KernelLinear.lean ====
/-
  The kernel's result array is the linear layer of its arguments.
  The output block `(a, b)` is built over the 8 consecutive grid points `16·a + 8·b + s`, `s = 0 … 7`: the first sets it
  to the bias block plus the first 512-column slice of the contraction, each later one adds the next slice, and the last
  one's contents are written to the array. So the array's entry `(r, c)`, which lies in block `(r / 2048, c / 2048)` at
  place `(r % 2048, c % 2048)`, ends as
      b[c] + Σ_{s < 8} Σ_{k < 512} x[r, 512·s + k] · w[c, 512·s + k],
  and the 8 slices' sums add up to the whole contraction `Σ_{k < 4096} x[r, k] · w[c, k]`.
-/
import proofs.«152581_g7619271983253_cont_9to1c4b_867_6_alg».proof.Proof.Gen.KernelIdeal.Value
import proofs.«152581_g7619271983253_cont_9to1c4b_867_6_alg».proof.Proof.LinearSpec
import proofs.«152581_g7619271983253_cont_9to1c4b_867_6_alg».proof.Proof.KernelBody
import proofs.«152581_g7619271983253_cont_9to1c4b_867_6_alg».proof.Proof.KernelBlocks

noncomputable section

namespace Cert.KernelIdeal.LinearValue

open Cert.KernelIdeal Cert.KernelIdeal.Gen Cert.Linear
open Idealize.ShloMosaic Idealize.ShloMosaic.TcCoe Idealize.ShloMosaic.ValueIdx Idealize.SL.Sem

variable (m : (ℓ : Loc nD τ sig) → Buf (Elt Ideal) ℓ)

/-- What point `n` contributes to entry `j` of its output block: the 512-term slice of the contraction of the input's
    row with the weight's row, over the columns `512·(n % 8) …`. -/
def slice (c : Dev nD) (n : ℕ) (j : S2048x2048.Idx) : EReal :=
  ∑ k : Fin 512,
    ext2 (m ((c : Thread nD τ).loc main_arg0)) (2048 * (n / 16) + (j 0).val) (512 * (n % 8) + k.val)
      * ext2 (m ((c : Thread nD τ).loc main_arg1)) (2048 * (n / 8 % 2) + (j 1).val) (512 * (n % 8) + k.val)

/-- The bias entry that entry `j` of the output block of the run starting at point `n` begins from. -/
def start (c : Dev nD) (n : ℕ) (j : S2048x2048.Idx) : EReal :=
  ext1 (m ((c : Thread nD τ).loc main_arg2)) (2048 * (n / 8 % 2) + (j 1).val)

/-- The first point of a run leaves the bias entry plus its slice. -/
theorem reset_apply (c : Dev nD) (n : ℕ) (h : n < cfg0.N) (j : S2048x2048.Idx) :
    Value.reset3 m c n h j = start m c n j + slice m c n j := by
  obtain ⟨p, q, rfl⟩ : ∃ (p q : Fin 2048), j = ix2 p q := ⟨j 0, j 1, eq_ix2 j⟩
  unfold Value.reset3
  refine (Body.step_apply (iblk m c 0 ⟨n, h⟩) (iblk m c 1 ⟨n, h⟩) (k0_pay1 (iblk m c 2 ⟨n, h⟩)) p q).trans ?_
  exact congrArg₂ (· + ·)
    ((Body.bias_apply (iblk m c 2 ⟨n, h⟩) p q).trans (Blocks.bias_block m c ⟨n, h⟩ q))
    (Finset.sum_congr rfl fun k _ =>
      congrArg₂ (· * ·) (Blocks.input_block m c ⟨n, h⟩ p k) (Blocks.weight_block m c ⟨n, h⟩ q k))

/-- Every later point of a run adds its slice to what the point before left. -/
theorem step_apply (c : Dev nD) (n : ℕ) (h : n < cfg0.N) (acc : Vec Ideal S2048x2048 .f32) (j : S2048x2048.Idx) :
    Value.step3 m c n h acc j = acc j + slice m c n j := by
  obtain ⟨p, q, rfl⟩ : ∃ (p q : Fin 2048), j = ix2 p q := ⟨j 0, j 1, eq_ix2 j⟩
  unfold Value.step3
  refine (Body.step_apply (iblk m c 0 ⟨n, h⟩) (iblk m c 1 ⟨n, h⟩) acc p q).trans ?_
  exact congrArg (acc (ix2 p q) + ·)
    (Finset.sum_congr rfl fun k _ =>
      congrArg₂ (· * ·) (Blocks.input_block m c ⟨n, h⟩ p k) (Blocks.weight_block m c ⟨n, h⟩ q k))

/-- After the 8 points of the run starting at `8·r`, the block holds the bias entry plus the 8 slices. -/
theorem fold_apply (c : Dev nD) (r : ℕ) (h : 8 * r + 7 < cfg0.N) (j : S2048x2048.Idx) :
    Pipeline.accAt (Value.reset3 m c) (Value.step3 m c) (8 * r) 7 h j
      = start m c (8 * r) j + ∑ s ∈ Finset.range (7 + 1), slice m c (8 * r + s) j :=
  Pipeline.accAt_add_apply (ι := S2048x2048.Idx) (β := EReal) (Value.reset3 m c) (Value.step3 m c)
    (start m c (8 * r)) (slice m c) (8 * r) 7
    (fun h j => reset_apply m c (8 * r) h j) (fun n h acc j _ _ => step_apply m c n h acc j) 7 le_rfl h j

/-- The array the kernel leaves is the linear layer of the input, the weight and the bias. -/
theorem result_eq (c : Dev nD) :
    Value.G3 (F := Ideal) m c
      = linear (m ((c : Thread nD τ).loc main_arg0)) (m ((c : Thread nD τ).loc main_arg1)) (m ((c : Thread nD τ).loc main_arg2)) := by
  funext i
  obtain ⟨r, q, rfl⟩ : ∃ (r q : Fin 4096), i = ix2 r q := ⟨i 0, i 1, eq_ix2 i⟩
  have hr := r.isLt
  have hq := q.isLt
  have hN : cfg0.N = 32 := N_0
  have hrun : Value.run3Of (ix2 r q) = 2 * (r.val / 2048) + q.val / 2048 := by
    show 2 * (r.val / 2048 - 0) + 1 * (q.val / 2048 - 0) = _
    omega
  have hlt : 8 * Value.run3Of (ix2 r q) + 7 < cfg0.N := by rw [hrun, hN]; omega
  unfold Value.G3
  rw [dif_pos hlt, fold_apply, linear_ext,
    ← sum_blocks (fun k => ext2 (m ((c : Thread nD τ).loc main_arg0)) r.val k * ext2 (m ((c : Thread nD τ).loc main_arg1)) q.val k)]
  refine congrArg₂ (· + ·) ?_ (Finset.sum_congr rfl fun s hs => ?_)
  · show ext1 _ (2048 * (8 * Value.run3Of (ix2 r q) / 8 % 2) + q.val % 2048) = ext1 _ q.val
    refine congrArg _ ?_
    rw [hrun]; omega
  · have hs' : s < 8 := Finset.mem_range.mp hs
    have e0 : 2048 * ((8 * Value.run3Of (ix2 r q) + s) / 16) + r.val % 2048 = r.val := by rw [hrun]; omega
    have e1 : 2048 * ((8 * Value.run3Of (ix2 r q) + s) / 8 % 2) + q.val % 2048 = q.val := by rw [hrun]; omega
    have e2 : (8 * Value.run3Of (ix2 r q) + s) % 8 = s := by omega
    show ∑ k : Fin 512,
        ext2 _ (2048 * ((8 * Value.run3Of (ix2 r q) + s) / 16) + r.val % 2048) (512 * ((8 * Value.run3Of (ix2 r q) + s) % 8) + k.val)
          * ext2 _ (2048 * ((8 * Value.run3Of (ix2 r q) + s) / 8 % 2) + q.val % 2048) (512 * ((8 * Value.run3Of (ix2 r q) + s) % 8) + k.val)
      = _
    rw [e0, e1, e2]

end Cert.KernelIdeal.LinearValue

end
-- ==== Proof.lean ====
/-
  A linear layer, `y = x · wᵀ + b` with `x` and `w` of size 4096 × 4096 and `b` of length 4096, computed by a tiled
  kernel against the plain `jnp.dot(x, w.T) + b`.

  The kernel works on a 2 × 2 × 8 grid: output block `(a, b)` (2048 × 2048) is set, at the first of its 8 contraction
  steps, to the bias block broadcast down the rows, and at each step gains the product of a 2048 × 512 block of the input
  with a 2048 × 512 block of the weight, contracted over their 512 columns (the operands are narrowed to bfloat16 first,
  which changes nothing over the extended reals). After the 8 steps entry `(r, c)` holds
      b[c] + Σ_{s < 8} Σ_{k < 512} x[r, 512·s + k] · w[c, 512·s + k].
  The reference computes `Σ_{k < 4096} x[r, k] · w[c, k] + b[c]`. The two agree because a sum over 4096 = 8 · 512 indices
  is the sum of its 8 blocks and addition commutes — laws of the commutative monoid of extended reals that hold at the
  infinities too, so the finiteness of the inputs is never used.

  Both sides are shown equal to one function, `Cert.Linear.linear`: the reference in `RefLinear`, the kernel in
  `KernelBody` (the body's arithmetic at an entry), `KernelBlocks` (which entries of the arguments a block holds) and
  `KernelLinear` (the 8 steps folded, and the blocks' sums joined).
-/
import proofs.«152581_g7619271983253_cont_9to1c4b_867_6_alg».proof.Defs
import proofs.«152581_g7619271983253_cont_9to1c4b_867_6_alg».proof.Proof.Gen.Kernel.Frame
import proofs.«152581_g7619271983253_cont_9to1c4b_867_6_alg».proof.Proof.Gen.KernelIdeal.Value
import proofs.«152581_g7619271983253_cont_9to1c4b_867_6_alg».proof.Proof.Gen.Pre_finite_inputs
import proofs.«152581_g7619271983253_cont_9to1c4b_867_6_alg».proof.Proof.Gen.ReferenceIdeal.Run
import proofs.«152581_g7619271983253_cont_9to1c4b_867_6_alg».proof.Proof.RefLinear
import proofs.«152581_g7619271983253_cont_9to1c4b_867_6_alg».proof.Proof.KernelLinear
import Idealize.ShloMosaic.Adequacy
import Idealize.ShloMosaic.Init

noncomputable section

namespace Cert.Proof

open Idealize.ShloMosaic Idealize.SL.Sem

/-- The idealized kernel terminates without a fault and leaves its arguments unchanged: its run to the result array,
    with the result dropped. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the three arguments, both programs end with the linear layer of those arguments in
    their result array: the kernel by folding its 8 contraction steps per block, the reference by reading its
    `dot_general` and broadcast sum at an entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.RefValue.result_eq _ _ _).trans (Cert.KernelIdeal.LinearValue.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
